-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x4096x1024 .f32) (main_arg1 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S4x4096x1024 : Shape := ⟨3, ![4, 4096, 1024]⟩
abbrev S1024x1024 : Shape := ⟨2, ![1024, 1024]⟩
abbrev S4x1024x1024 : Shape := ⟨3, ![4, 1024, 1024]⟩
abbrev S1x1024x1024 : Shape := ⟨3, ![1, 1024, 1024]⟩
abbrev S1x512x1024 : Shape := ⟨3, ![1, 512, 1024]⟩
abbrev S512x1024 : Shape := ⟨2, ![512, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S4x1024x1024, .f32⟩
  | .hbm, ⟨4, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x512x1024, .f32⟩
  | .local _ .vmem, ⟨5, _⟩ => ⟨S1x512x1024, .f32⟩
  | .local _ .vmem, ⟨6, _⟩ => ⟨S1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x512x1024, .f32⟩
  | .local _ .vmem, ⟨10, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S1024x1024_S1024x1024_1_0 : S1024x1024.Transposes [1, 0] S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  bitsLt_bf16_f32 : FTy.bits .bf16 < FTy.bits .f32
  transposes_S1024x1024_p1_0_S1024x1024 : S1024x1024.Transposes [1, 0] S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  dot_S1024x1024_S1024x1024_S1024x1024_1_0_0_1_n_n_wf : DotDims.WF S1024x1024 S1024x1024 S1024x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S4x1024x1024.size a
  hwx0_1 : ∀ i : grid0.Coords, EltTy.bits .f32 = 32 ∨ (Rect.block (s := S4x1024x1024) S1x1024x1024.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x4096x1024.size a
  hwx1_0 : ∀ i : grid1.Coords, EltTy.bits .f32 = 32 ∨ (Rect.block (s := S4x4096x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x1024x1024.size a
  hwx1_2 : ∀ i : grid1.Coords, EltTy.bits .f32 = 32 ∨ (Rect.block (s := S4x1024x1024) S1x1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x4096x1024.size a
  hwx1_3 : ∀ i : grid1.Coords, EltTy.bits .f32 = 32 ∨ (Rect.block (s := S4x4096x1024) S1x512x1024.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S4x4096x4096 : Shape := ⟨3, ![4, 4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S4x4096x1024, .f32⟩
  | .hbm, ⟨3, _⟩ => ⟨S4x4096x4096, .f32⟩
  | .hbm, ⟨4, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  dot_S4x4096x1024_S1024x1024_S4x4096x1024_2_1_01_0_n_n_wf : DotDims.WF S4x4096x1024 S1024x1024 S4x4096x1024 [2] [1] [0, 1] [0] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.KRun.lean ====
/-
  The idealized kernel's run, with its result named.

  The program is a transpose of the weight on the host, then two regions: the first leaves the Gram matrices in an
  intermediate array, the second reads that array, the transposed weight and the hidden states and writes the result.
  The buffer contents at the boundaries between these segments form a chain: each region's arrays end at what its
  write-backs leave, every other buffer is carried over. Every weakly fair execution of the whole program terminates,
  without a fault, in a state whose result array holds the last link of that chain at the result's buffer, and whose
  argument arrays are as launched.
-/
import proofs.«143371_j34600256536774_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program over its three segments: the result array ends at the last boundary's contents of
    its buffer, the arguments as launched. -/
theorem run_last : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c)⟩)

end Cert.KernelIdeal.KRun

end
-- ==== Proof.Payload.lean ====
/-
  The two kernel bodies' arithmetic read at an index, over the extended reals.

  A change of float format is the identity on the extended reals, and a matrix product into a zero accumulator is the
  plain sum over the contracted coordinate. So the first body, given a block x of 1024 rows of the hidden states and
  the running Gram matrix acc, leaves
      acc(i,j) + Σₖ x(k,i) · x(k,j)
  (the transposed block times the block), its reset stores the zero matrix, and the second body, given a block x of 512
  rows, the transposed weight w and a Gram matrix g, leaves
      Σₒ (Σₖ x(r,k) · w(k,o)) · g(o,h).
-/
import proofs.«143371_j34600256536774_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx

theorem mm_sq_lhs0 (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem mm_sq_rhs1 (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A 1024 × 1024 by 1024 × 1024 product into the zero accumulator, at (i, j): the sum over the contracted coordinate. -/
theorem mm_sq_apply {φ₁ φ₂ : FTy} (a : FVec Ideal S1024x1024 φ₁) (b : FVec Ideal S1024x1024 φ₂) (i : Fin 1024) (j : Fin 1024) :
    matmul (F := Ideal) dot_S1024x1024_S1024x1024_S1024x1024_1_0_0_1_n_n none a b (constant S1024x1024 .f32 0x00000000#32) (ix2 i j)
      = ∑ k : Fin 1024, a (ix2 i k) * b (ix2 k j) := by
  show FloatOps.matmul _ _ a b (constant S1024x1024 .f32 0x00000000#32) (ix2 i j) = _
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 i j) ((contrEquiv1 dot_S1024x1024_S1024x1024_S1024x1024_1_0_0_1_n_n 1024 rfl rfl).symm k) = ix2 i k := funext fun ax => Fin.ext (by
    match ax with
    | ⟨0, _⟩ => exact mm_sq_lhs0 _ _
    | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 i j) ((contrEquiv1 dot_S1024x1024_S1024x1024_S1024x1024_1_0_0_1_n_n 1024 rfl rfl).symm k) = ix2 k j := funext fun ax => Fin.ext (by
    match ax with
    | ⟨0, _⟩ => exact (dot_S1024x1024_S1024x1024_S1024x1024_1_0_0_1_n_n.rhsIdx_val_of_single rfl _ _).trans hk
    | ⟨1, _⟩ => exact mm_sq_rhs1 _ _)
  rw [el, er]

theorem mm_rect_lhs0 (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem mm_rect_rhs1 (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A 512 × 1024 by 1024 × 1024 product into the zero accumulator, at (r, h). -/
theorem mm_rect_apply {φ₁ φ₂ : FTy} (a : FVec Ideal S512x1024 φ₁) (b : FVec Ideal S1024x1024 φ₂) (r : Fin 512) (h : Fin 1024) :
    matmul (F := Ideal) dot_S512x1024_S1024x1024_S512x1024_1_0_0_1_n_n none a b (constant S512x1024 .f32 0x00000000#32) (ix2 r h)
      = ∑ k : Fin 1024, a (ix2 r k) * b (ix2 k h) := by
  show FloatOps.matmul _ _ a b (constant S512x1024 .f32 0x00000000#32) (ix2 r h) = _
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r h) ((contrEquiv1 dot_S512x1024_S1024x1024_S512x1024_1_0_0_1_n_n 1024 rfl rfl).symm k) = ix2 r k := funext fun ax => Fin.ext (by
    match ax with
    | ⟨0, _⟩ => exact mm_rect_lhs0 _ _
    | ⟨1, _⟩ => exact (dot_S512x1024_S1024x1024_S512x1024_1_0_0_1_n_n.lhsIdx_val_of_single rfl _ _).trans hk)
  have er : dot_S512x1024_S1024x1024_S512x1024_1_0_0_1_n_n.rhsIdx (ix2 r h) ((contrEquiv1 dot_S512x1024_S1024x1024_S512x1024_1_0_0_1_n_n 1024 rfl rfl).symm k) = ix2 k h := funext fun ax => Fin.ext (by
    match ax with
    | ⟨0, _⟩ => exact (dot_S512x1024_S1024x1024_S512x1024_1_0_0_1_n_n.rhsIdx_val_of_single rfl _ _).trans hk
    | ⟨1, _⟩ => exact mm_rect_rhs1 _ _)
  rw [el, er]

/-- The reset's store is the zero matrix. -/
theorem reset_apply (u : Fin 1) (i j : Fin 1024) : k0_pay1 (F := Ideal) (ix3 u i j) = 0 := by
  unfold k0_pay1
  rw [shapeCast_ab_1ab_apply]
  exact Ideal.ofBits_zero_f32

/-- The first body's store: the running matrix plus the block's Gram matrix. -/
theorem gram_step_apply (x acc : Vec Ideal S1x1024x1024 .f32) (u : Fin 1) (i j : Fin 1024) :
    k0_pay2 (F := Ideal) x acc (ix3 u i j)
      = acc (ix3 (0 : Fin 1) i j) + ∑ k : Fin 1024, x (ix3 (0 : Fin 1) k i) * x (ix3 (0 : Fin 1) k j) := by
  unfold k0_pay2
  rw [shapeCast_ab_1ab_apply, addf_apply, shapeCast_1ab_ab_apply, mm_sq_apply]
  refine congrArg (acc (ix3 (0 : Fin 1) i j) + ·) (Finset.sum_congr rfl fun k _ => ?_)
  rw [transpose_ix2_apply, truncf_apply, truncf_apply, shapeCast_1ab_ab_apply, shapeCast_1ab_ab_apply]

/-- The second body's store: the block's queries multiplied into the Gram matrix. -/
theorem attn_apply (x : Vec Ideal S1x512x1024 .f32) (w : Vec Ideal S1024x1024 .f32) (g : Vec Ideal S1x1024x1024 .f32)
    (u : Fin 1) (r : Fin 512) (h : Fin 1024) :
    k1_pay1 (F := Ideal) x w g (ix3 u r h)
      = ∑ o : Fin 1024, (∑ k : Fin 1024, x (ix3 (0 : Fin 1) r k) * w (ix2 k o)) * g (ix3 (0 : Fin 1) o h) := by
  unfold k1_pay1
  rw [shapeCast_ab_1ab_apply, mm_rect_apply]
  refine Finset.sum_congr rfl fun o _ => ?_
  rw [truncf_apply, mm_rect_apply, truncf_apply, shapeCast_1ab_ab_apply]
  refine congrArg (· * g (ix3 (0 : Fin 1) o h)) (Finset.sum_congr rfl fun k _ => ?_)
  rw [truncf_apply, shapeCast_1ab_ab_apply, truncf_apply, shapeCast_self]

end Cert.KernelIdeal.Payload

end
-- ==== Proof.Spec.lean ====
/-
  The two programs' results as functions of the argument arrays, index by index, over the extended reals.

  Write A for the hidden states, a 4 × 4096 × 1024 array, and W for the 1024 × 1024 query weight. The projected
  queries are q(b,s,o) = Σₖ A(b,s,k) · W(o,k).

  The reference forms the 4096 × 4096 scores Σₒ q(b,s,o) · A(b,t,o) and multiplies them into A again:
      R(b,s,h) = Σₜ (Σₒ q(b,s,o) · A(b,t,o)) · A(b,t,h).
  The kernel first forms, per batch entry, the Gram matrix of the hidden states — accumulated over four blocks of
  1024 rows each, in row order — and then multiplies the queries into it:
      G(b,o,h) = ((S₀ + S₁) + S₂) + S₃,   Sₛ(b,o,h) = Σₖ A(b,1024·s+k,o) · A(b,1024·s+k,h),
      K(b,s,h) = Σₒ q(b,s,o) · G(b,o,h).
  The two agree on real data because a product of matrices is associative; on the extended reals that law needs every
  entry to be a real number.
-/
import Idealize.ShloMosaic.PureOps.Ideal
import Idealize.ShloMosaic.Lib.ValueIdx

noncomputable section

open scoped BigOperators

namespace Cert.Spec

open Idealize.ShloMosaic Idealize.ShloMosaic.ValueIdx

/-- The hidden states' shape, the weight's, and the Gram matrices'. -/
abbrev SA : Shape := ⟨3, ![4, 4096, 1024]⟩
abbrev SW : Shape := ⟨2, ![1024, 1024]⟩
abbrev SG : Shape := ⟨3, ![4, 1024, 1024]⟩

/-- The projected queries: q(b,s,o) = Σₖ A(b,s,k) · W(o,k). -/
def query (A : SA.Idx → EReal) (W : SW.Idx → EReal) (b : Fin 4) (s : Fin 4096) (o : Fin 1024) : EReal :=
  ∑ k : Fin 1024, A (ix3 b s k) * W (ix2 o k)

/-- The reference's result: the scores against every row t, multiplied into the rows. -/
def attnRef (A : SA.Idx → EReal) (W : SW.Idx → EReal) : SA.Idx → EReal := fun i =>
  ∑ t : Fin 4096, (∑ o : Fin 1024, query A W (i 0) (i 1) o * A (ix3 (i 0) t o)) * A (ix3 (i 0) t (i 2))

/-- Row k of the s-th block of 1024 rows. -/
def rowBlk (s : Fin 4) (k : Fin 1024) : Fin 4096 := ⟨1024 * s.val + k.val, by omega⟩

/-- One block's share of the Gram matrix: Σₖ A(b,1024·s+k,o) · A(b,1024·s+k,h). -/
def gramBlk (A : SA.Idx → EReal) (b : Fin 4) (s : Fin 4) (o h : Fin 1024) : EReal :=
  ∑ k : Fin 1024, A (ix3 b (rowBlk s k) o) * A (ix3 b (rowBlk s k) h)

/-- The Gram matrices, accumulated block after block in row order. -/
def gram (A : SA.Idx → EReal) : SG.Idx → EReal := fun j =>
  gramBlk A (j 0) 0 (j 1) (j 2) + gramBlk A (j 0) 1 (j 1) (j 2) + gramBlk A (j 0) 2 (j 1) (j 2)
    + gramBlk A (j 0) 3 (j 1) (j 2)

/-- The kernel's result: the queries multiplied into the Gram matrix. -/
def attnKer (A : SA.Idx → EReal) (W : SW.Idx → EReal) : SA.Idx → EReal := fun i =>
  ∑ o : Fin 1024, query A W (i 0) (i 1) o * gram A (ix3 (i 0) o (i 2))

end Cert.Spec

end
-- ==== Proof.Region0.lean ====
/-
  The first region: the Gram matrices.

  The grid has sixteen points, t = 4·b + s: batch entry b, block s of 1024 rows of the hidden states. The output block
  of batch entry b stays in place for the four points of b; at s = 0 it is reset to the zero matrix, at every point the
  Gram matrix of the point's block of rows is added to it, and after s = 3 it is written back. So what is written back
  for b is ((0 + S₀) + S₁) + S₂) + S₃ with Sₛ(o,h) = Σₖ A(b,1024·s+k,o) · A(b,1024·s+k,h), which is the Gram matrix of
  the specification, and the four write-backs fill the output array.
-/
import proofs.«143371_j34600256536774_2_alg».proof.Proof.Gen.KernelIdeal.Frame
import proofs.«143371_j34600256536774_2_alg».proof.Proof.Payload
import proofs.«143371_j34600256536774_2_alg».proof.Proof.Spec
import Idealize.ShloMosaic.Lib.Pipeline.Value
import Idealize.ShloMosaic.Lib.Tactic

set_option maxRecDepth 16384

noncomputable section

open scoped BigOperators

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

section AnyFloat

variable {F : FTy → Type} [FloatOps F]

theorem hz3 : (![0, 0, 0] : Fin 3 → Nat) = fun _ => 0 := funext fun a => by fin_cases a <;> rfl

/-- Away from the first block of a batch entry the body leaves the step's store of the input block and of what the
    output buffer held. -/
theorem out_next (c : Dev nD) (i : grid0.Coords) (a1 : Memref sig .tc .vmem S1x1024x1024 .f32) (h1 : a1.IsWhole)
    (a2 : Memref sig .tc .vmem S1x1024x1024 .f32) (h2 : a2.IsWhole) (hc : ¬cond0_0 i) (x xo : Vec F S1x1024x1024 .f32) :
    out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  rw [View.canon_unit_zero hz3]
  simp only [View.readAt_eq_ld, h1.read_unread, h2.read_unread, View.ld_unit_zero (S := S1x1024x1024) hz3]

/-- At the first block of a batch entry the body resets the output buffer, reads the reset back, and leaves the
    step's store of the input block and of the reset. -/
theorem out_first (c : Dev nD) (i : grid0.Coords) (a1 : Memref sig .tc .vmem S1x1024x1024 .f32) (h1 : a1.IsWhole)
    (a2 : Memref sig .tc .vmem S1x1024x1024 .f32) (h2 : a2.IsWhole) (hc : cond0_0 i) (x : Vec F S1x1024x1024 .f32) :
    out0_A_1 c i a1 h1 a2 h2 hc x = k0_pay2 x (k0_pay1 (F := F)) := by
  unfold out0_A_1
  rw [View.read_writes_eq_canon _ _ _ (cover0_A_1 c i a1 h1 a2 h2 hc x)]
  unfold kernelRun0_A
  dsimp only
  sl_unfold_words
  rw [View.canon_cons_unit_zero (S := S1x1024x1024) hz3, View.readCov_unit_zero (S := S1x1024x1024) _ hz3]
  simp only [View.readAt_eq_ld, h1.read_unread, View.ld_unit_zero (S := S1x1024x1024) hz3]

end AnyFloat

variable (V : (c : Dev nD) → (b : Ref sig .tc) → Buf (Elt Ideal) ((c : Thread nD τ).loc b))

/-- The printed index maps over the sixteen points: the input window is at batch entry t / 4 and row block t % 4, the
    output window at batch entry t / 4. -/
theorem idx_facts : ∀ t : Fin cfg0.N, win0_0.index t (0 : Fin 3) = t.val / 4 ∧ win0_0.index t (1 : Fin 3) = t.val % 4
    ∧ win0_0.index t (2 : Fin 3) = 0 ∧ win0_1.index t (0 : Fin 3) = t.val / 4 ∧ win0_1.index t (1 : Fin 3) = 0
    ∧ win0_1.index t (2 : Fin 3) = 0 :=
  (by decide +kernel : ∀ t : Fin grid0.N, _)

/-- The input block at point t, entry (k, i): row 1024·(t % 4) + k of batch entry t / 4 of the hidden states. -/
theorem blk_apply (c : Dev nD) (t : Fin cfg0.N) (u : Fin 1) (k i : Fin 1024) (b : Fin 4) (hb : b.val = t.val / 4)
    (row : Fin 4096) (hrow : row.val = 1024 * (t.val % 4) + k.val) :
    (iblk0 V c 0 t : Vec Ideal S1x1024x1024 .f32) (ix3 u k i) = V c main_arg0 (ix3 b row i) := by
  obtain ⟨e0, e1, e2, -, -, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 3) * 1 + 1 * u.val = b.val; have := u.isLt; omega
  | ⟨1, _⟩ => show win0_0.index t (1 : Fin 3) * 1024 + 1 * k.val = row.val; omega
  | ⟨2, _⟩ => show win0_0.index t (2 : Fin 3) * 1024 + 1 * i.val = i.val; omega

/-- The Gram matrix of a block x of 1024 rows: Σₖ x(k,i) · x(k,j). -/
def blockGram (x : Vec Ideal S1x1024x1024 .f32) (i j : Fin 1024) : EReal :=
  ∑ k : Fin 1024, x (ix3 (0 : Fin 1) k i) * x (ix3 (0 : Fin 1) k j)

/-- The Gram matrix of the block of rows at point t is the block's share of the specification's Gram matrix. -/
theorem blk_gram (c : Dev nD) (t : Fin cfg0.N) (b s : Fin 4) (hb : b.val = t.val / 4) (hs : s.val = t.val % 4) (i j : Fin 1024) :
    blockGram (iblk0 V c 0 t) i j = Cert.Spec.gramBlk (V c main_arg0) b s i j := by
  unfold Cert.Spec.gramBlk blockGram
  refine Finset.sum_congr rfl fun k _ => ?_
  have hr : (Cert.Spec.rowBlk s k).val = 1024 * (t.val % 4) + k.val := by unfold Cert.Spec.rowBlk; rw [← hs]
  rw [blk_apply V c t 0 k i b hb _ hr, blk_apply V c t 0 k j b hb _ hr]

/-- After the first block of a batch entry the output buffer holds the zero matrix plus the block's Gram matrix. -/
theorem after_first (c : Dev nD) (t : Fin cfg0.N) (h0 : t.val % 4 = 0) (u : Fin 1) (i j : Fin 1024) :
    outsAt0 V c t.val t.isLt (ix3 u i j) = 0 + blockGram (iblk0 V c 0 t) i j := by
  rw [outsAt0_A V c t h0, out_first]
  refine (Payload.gram_step_apply _ _ u i j).trans ?_
  rw [Payload.reset_apply]
  rfl

/-- After a later block it holds what the point before left plus the block's Gram matrix. -/
theorem after_next (c : Dev nD) (t : Fin cfg0.N) (h0 : ¬t.val % 4 = 0) (u : Fin 1) (i j : Fin 1024) :
    outsAt0 V c t.val t.isLt (ix3 u i j)
      = outsAt0 V c (t.val - 1) (Nat.lt_of_le_of_lt (Nat.sub_le _ _) t.isLt) (ix3 (0 : Fin 1) i j)
        + blockGram (iblk0 V c 0 t) i j := by
  rw [outsAt0_B V c t h0, out_next]
  exact Payload.gram_step_apply _ _ u i j

/-- After the last block of batch entry b the output buffer holds the specification's Gram matrix of b. -/
theorem after_last (c : Dev nD) (t : Fin cfg0.N) (h3 : t.val % 4 = 3) (b : Fin 4) (hb : b.val = t.val / 4) (u : Fin 1) (i j : Fin 1024) :
    outsAt0 V c t.val t.isLt (ix3 u i j) = Cert.Spec.gram (V c main_arg0) (ix3 b i j) := by
  have hN : cfg0.N = 16 := N_0
  have ht : t.val < 16 := lt_of_lt_of_eq t.isLt hN
  have l2 : t.val - 1 < cfg0.N := by omega
  have l1 : t.val - 1 - 1 < cfg0.N := by omega
  have l0 : t.val - 1 - 1 - 1 < cfg0.N := by omega
  rw [after_next V c t (by omega) u i j,
    after_next V c ⟨t.val - 1, l2⟩ (by show ¬(t.val - 1) % 4 = 0; omega) 0 i j,
    after_next V c ⟨t.val - 1 - 1, l1⟩ (by show ¬(t.val - 1 - 1) % 4 = 0; omega) 0 i j,
    after_first V c ⟨t.val - 1 - 1 - 1, l0⟩ (by show (t.val - 1 - 1 - 1) % 4 = 0; omega) 0 i j,
    blk_gram V c t b 3 (by omega) (by show 3 = t.val % 4; omega) i j,
    blk_gram V c ⟨t.val - 1, l2⟩ b 2 (by show b.val = (t.val - 1) / 4; omega) (by show 2 = (t.val - 1) % 4; omega) i j,
    blk_gram V c ⟨t.val - 1 - 1, l1⟩ b 1 (by show b.val = (t.val - 1 - 1) / 4; omega) (by show 1 = (t.val - 1 - 1) % 4; omega) i j,
    blk_gram V c ⟨t.val - 1 - 1 - 1, l0⟩ b 0 (by show b.val = (t.val - 1 - 1 - 1) / 4; omega) (by show 0 = (t.val - 1 - 1 - 1) % 4; omega) i j,
    zero_add]
  rfl

/-- What a write-back of the output window writes is its block of the specification's Gram matrices. -/
theorem flushed_eq (c : Dev nD) (t : Fin cfg0.N) (hf : (cfg0.win 1).flush t = true) :
    (dat0 V c).flushed 1 t = ((cfg0.win 1).blk t).view.read (Elt Ideal) (Cert.Spec.gram (V c main_arg0)) := by
  have h3 : t.val % 4 = 3 := (flush0_1 t).mp hf
  have hN : cfg0.N = 16 := N_0
  have ht : t.val < 16 := lt_of_lt_of_eq t.isLt hN
  obtain ⟨-, -, -, e0, e1, e2⟩ := idx_facts t
  show (cfg0.win 1).cut (grid0.coords t) ((dat0 V c).after 1 t) = _
  rw [after0_1]
  funext y
  rw [View.read_apply]
  obtain ⟨u, i, j, rfl⟩ : ∃ (u : Fin 1) (i j : Fin 1024), y = ix3 u i j := ⟨y 0, y 1, y 2, eq_ix3 y⟩
  show outsAt0 V c t.val t.isLt (ix3 u i j) = _
  rw [after_last V c t h3 ⟨t.val / 4, by omega⟩ rfl u i j]
  refine congrArg (Cert.Spec.gram (V c main_arg0)) (funext fun a => Fin.ext ?_)
  match a with
  | ⟨0, _⟩ => show t.val / 4 = win0_1.index t (0 : Fin 3) * 1 + 1 * u.val; have := u.isLt; omega
  | ⟨1, _⟩ => show i.val = win0_1.index t (1 : Fin 3) * 1024 + 1 * i.val; omega
  | ⟨2, _⟩ => show j.val = win0_1.index t (2 : Fin 3) * 1024 + 1 * j.val; omega

/-- An index of the output array is in point t's block when each coordinate is in the block's range on its axis. -/
theorem mem_blk (t : Fin cfg0.N) (i : S4x1024x1024.Idx) :
    i ∈ ((cfg0.win 1).blk t).view.set ↔ ∀ a : Fin 3, win0_1.index t a * S1x1024x1024.size a ≤ (i a).val ∧ (i a).val < win0_1.index t a * S1x1024x1024.size a + S1x1024x1024.size a := by
  show i ∈ ((View.whole main_v1).slice (win0_1.rect t)).set ↔ _
  rw [View.set_slice_whole, Rect.mem_set_unit]
  exact Iff.rfl

/-- Every index of the output array lies in the block written back after the last row block of its batch entry. -/
theorem cover (i : S4x1024x1024.Idx) :
    ∃ t : Fin cfg0.N, (cfg0.win 1).flush t = true ∧ i ∈ ((cfg0.win 1).blk t).view.set := by
  have hN : cfg0.N = 16 := N_0
  have hi0 : (i 0).val < 4 := (i 0).isLt
  have hi1 : (i 1).val < 1024 := (i 1).isLt
  have hi2 : (i 2).val < 1024 := (i 2).isLt
  have hlt : 4 * (i 0).val + 3 < cfg0.N := by omega
  obtain ⟨t, ht⟩ : ∃ t : Fin cfg0.N, t.val = 4 * (i 0).val + 3 := ⟨⟨4 * (i 0).val + 3, hlt⟩, rfl⟩
  refine ⟨t, (flush0_1 t).mpr (by omega), ?_⟩
  obtain ⟨-, -, -, e0, e1, e2⟩ := idx_facts t
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1024 ≤ (i 1).val ∧ (i 1).val < win0_1.index t (1 : Fin 3) * 1024 + 1024; omega
  | ⟨2, _⟩ => show win0_1.index t (2 : Fin 3) * 1024 ≤ (i 2).val ∧ (i 2).val < win0_1.index t (2 : Fin 3) * 1024 + 1024; omega

/-- The first region leaves the specification's Gram matrices of the hidden states in its output array. -/
theorem final (c : Dev nD) : (dat0 V c).arrAt 1 cfg0.N = Cert.Spec.gram (V c main_arg0) :=
  (dat0 V c).arrAt_eq_of_cover 1 (Cert.Spec.gram (V c main_arg0)) (flushed_eq V c) (cover)

end Cert.KernelIdeal.Region0

end
-- ==== Proof.Region1.lean ====
/-
  The second region: the queries multiplied into the Gram matrices.

  The grid has thirty-two points, t = 8·b + p: batch entry b, block p of 512 rows of the hidden states. At every point
  the body reads its block of rows x, the whole transposed weight w and the Gram matrix g of batch entry b as the first
  region left it, and stores Σₒ (Σₖ x(r,k) · w(k,o)) · g(o,h); every point writes its block back, and the thirty-two
  blocks fill the result array. So the result array ends as one function of the three arrays the region reads.
-/
import proofs.«143371_j34600256536774_2_alg».proof.Proof.Gen.KernelIdeal.Frame
import proofs.«143371_j34600256536774_2_alg».proof.Proof.Payload
import proofs.«143371_j34600256536774_2_alg».proof.Proof.Spec
import Idealize.ShloMosaic.Lib.Pipeline.Value

set_option maxRecDepth 16384

noncomputable section

open scoped BigOperators

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

/-- What the region computes from the hidden states A, the transposed weight w and a stack of matrices g:
    Σₒ (Σₖ A(b,s,k) · w(k,o)) · g(b,o,h). -/
def attn (A : Cert.Spec.SA.Idx → EReal) (w : Cert.Spec.SW.Idx → EReal) (g : Cert.Spec.SG.Idx → EReal) :
    Cert.Spec.SA.Idx → EReal := fun i =>
  ∑ o : Fin 1024, (∑ k : Fin 1024, A (ix3 (i 0) (i 1) k) * w (ix2 k o)) * g (ix3 (i 0) o (i 2))

/-- The region's function at batch entry b, row s, column h. -/
theorem attn_at (A : Cert.Spec.SA.Idx → EReal) (w : Cert.Spec.SW.Idx → EReal) (g : Cert.Spec.SG.Idx → EReal)
    (b : Fin 4) (s : Fin 4096) (h : Fin 1024) :
    attn A w g (ix3 b s h) = ∑ o : Fin 1024, (∑ k : Fin 1024, A (ix3 b s k) * w (ix2 k o)) * g (ix3 b o h) := rfl

theorem hz3 : (![0, 0, 0] : Fin 3 → Nat) = fun _ => 0 := funext fun a => by fin_cases a <;> rfl
theorem hz2 : (![0, 0] : Fin 2 → Nat) = fun _ => 0 := funext fun a => by fin_cases a <;> rfl

variable (V : (c : Dev nD) → (b : Ref sig .tc) → Buf (Elt Ideal) ((c : Thread nD τ).loc b))

/-- The printed index maps over the thirty-two points: the rows' window and the result's are at batch entry t / 8 and
    row block t % 8, the weight's window is the whole weight, the Gram matrices' window is at batch entry t / 8. -/
theorem idx_facts : ∀ t : Fin cfg1.N, win1_0.index t (0 : Fin 3) = t.val / 8 ∧ win1_0.index t (1 : Fin 3) = t.val % 8
    ∧ win1_0.index t (2 : Fin 3) = 0 ∧ win1_1.index t (0 : Fin 2) = 0 ∧ win1_1.index t (1 : Fin 2) = 0
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = t.val % 8 ∧ win1_3.index t (2 : Fin 3) = 0 :=
  (by decide +kernel : ∀ t : Fin grid1.N, _)

/-- The block of rows at point t, entry (r, k): row 512·(t % 8) + r of batch entry t / 8 of the hidden states. -/
theorem rows_apply (c : Dev nD) (t : Fin cfg1.N) (u : Fin 1) (r : Fin 512) (k : Fin 1024) (b : Fin 4) (hb : b.val = t.val / 8)
    (row : Fin 4096) (hrow : row.val = 512 * (t.val % 8) + r.val) :
    (iblk1 V c 0 t : Vec Ideal S1x512x1024 .f32) (ix3 u r k) = V c main_arg0 (ix3 b row k) := by
  obtain ⟨e0, e1, e2, -⟩ := idx_facts t
  unfold iblk1
  rw [View.read_apply]
  show V c main_arg0 _ = V c main_arg0 _
  refine congrArg (V c main_arg0) (funext fun a => Fin.ext ?_)
  match a with
  | ⟨0, _⟩ => show win1_0.index t (0 : Fin 3) * 1 + 1 * u.val = b.val; have := u.isLt; omega
  | ⟨1, _⟩ => show win1_0.index t (1 : Fin 3) * 512 + 1 * r.val = row.val; omega
  | ⟨2, _⟩ => show win1_0.index t (2 : Fin 3) * 1024 + 1 * k.val = k.val; omega

/-- The weight's block at any point is the whole transposed weight. -/
theorem weight_apply (c : Dev nD) (t : Fin cfg1.N) (k o : Fin 1024) :
    (iblk1 V c 1 t : Vec Ideal S1024x1024 .f32) (ix2 k o) = V c main_v0 (ix2 k o) := by
  obtain ⟨-, -, -, e0, e1, -⟩ := idx_facts t
  unfold iblk1
  rw [View.read_apply]
  show V c main_v0 _ = V c main_v0 _
  refine congrArg (V c main_v0) (funext fun a => Fin.ext ?_)
  match a with
  | ⟨0, _⟩ => show win1_1.index t (0 : Fin 2) * 1024 + 1 * k.val = k.val; omega
  | ⟨1, _⟩ => show win1_1.index t (1 : Fin 2) * 1024 + 1 * o.val = o.val; omega

/-- The Gram matrices' block at point t is the matrix of batch entry t / 8. -/
theorem gram_apply (c : Dev nD) (t : Fin cfg1.N) (u : Fin 1) (o h : Fin 1024) (b : Fin 4) (hb : b.val = t.val / 8) :
    (iblk1 V c 2 t : Vec Ideal S1x1024x1024 .f32) (ix3 u o h) = V c main_v1 (ix3 b o h) := by
  obtain ⟨-, -, -, -, -, e0, e1, e2, -⟩ := idx_facts t
  unfold iblk1
  rw [View.read_apply]
  show V c main_v1 _ = V c main_v1 _
  refine congrArg (V c main_v1) (funext fun a => Fin.ext ?_)
  match a with
  | ⟨0, _⟩ => show win1_2.index t (0 : Fin 3) * 1 + 1 * u.val = b.val; have := u.isLt; omega
  | ⟨1, _⟩ => show win1_2.index t (1 : Fin 3) * 1024 + 1 * o.val = o.val; omega
  | ⟨2, _⟩ => show win1_2.index t (2 : Fin 3) * 1024 + 1 * h.val = h.val; omega

/-- What the body leaves at point t, entry (r, h): the region's function at row 512·(t % 8) + r of batch entry t / 8. -/
theorem after_apply (c : Dev nD) (t : Fin cfg1.N) (u : Fin 1) (r : Fin 512) (h : Fin 1024) (b : Fin 4) (hb : b.val = t.val / 8)
    (row : Fin 4096) (hrow : row.val = 512 * (t.val % 8) + r.val) :
    out1_3 (iblk1 V c 0 t) (iblk1 V c 1 t) (iblk1 V c 2 t) (ix3 u r h)
      = attn (V c main_arg0) (V c main_v0) (V c main_v1) (ix3 b row h) := by
  unfold out1_3
  rw [View.canon_unit_zero hz3]
  simp only [View.ld_unit_zero (S := S1x512x1024) hz3, View.ld_unit_zero (S := S1024x1024) hz2, View.ld_unit_zero (S := S1x1024x1024) hz3]
  refine (Payload.attn_apply _ _ _ u r h).trans ((attn_at _ _ _ b row h).trans ?_).symm
  refine Finset.sum_congr rfl fun o _ => ?_
  rw [gram_apply V c t 0 o h b hb]
  refine congrArg (· * V c main_v1 (ix3 b o h)) (Finset.sum_congr rfl fun k _ => ?_)
  rw [rows_apply V c t 0 r k b hb row hrow, weight_apply V c t k o]

/-- What point t writes back is its block of the region's function of the arrays as the region finds them. -/
theorem flushed_eq (c : Dev nD) (t : Fin cfg1.N) :
    (dat1 V c).flushed 3 t = ((cfg1.win 3).blk t).view.read (Elt Ideal) (attn (V c main_arg0) (V c main_v0) (V c main_v1)) := by
  have hN : cfg1.N = 32 := N_1
  have ht : t.val < 32 := lt_of_lt_of_eq t.isLt hN
  obtain ⟨-, -, -, -, -, -, -, -, e0, e1, e2⟩ := idx_facts t
  show (cfg1.win 3).cut (grid1.coords t) ((dat1 V c).after 3 t) = _
  rw [after1_3]
  funext y
  rw [View.read_apply]
  obtain ⟨u, r, h, rfl⟩ : ∃ (u : Fin 1) (r : Fin 512) (h : Fin 1024), y = ix3 u r h := ⟨y 0, y 1, y 2, eq_ix3 y⟩
  have hr : r.val < 512 := r.isLt
  refine (after_apply V c t u r h ⟨t.val / 8, by omega⟩ rfl ⟨512 * (t.val % 8) + r.val, by omega⟩ rfl).trans ?_
  refine congrArg (attn (V c main_arg0) (V c main_v0) (V c main_v1)) (funext fun a => Fin.ext ?_)
  match a with
  | ⟨0, _⟩ => show t.val / 8 = win1_3.index t (0 : Fin 3) * 1 + 1 * u.val; have := u.isLt; omega
  | ⟨1, _⟩ => show 512 * (t.val % 8) + r.val = win1_3.index t (1 : Fin 3) * 512 + 1 * r.val; omega
  | ⟨2, _⟩ => show h.val = win1_3.index t (2 : Fin 3) * 1024 + 1 * h.val; omega

/-- Every index of the result array lies in the block of the point of its batch entry and its block of 512 rows. -/
theorem cover (i : S4x4096x1024.Idx) :
    ∃ t : Fin cfg1.N, (cfg1.win 3).flush t = true ∧ i ∈ ((cfg1.win 3).blk t).view.set := by
  have hN : cfg1.N = 32 := N_1
  have hi0 : (i 0).val < 4 := (i 0).isLt
  have hi1 : (i 1).val < 4096 := (i 1).isLt
  have hi2 : (i 2).val < 1024 := (i 2).isLt
  have hlt : 8 * (i 0).val + (i 1).val / 512 < cfg1.N := by omega
  refine ⟨⟨8 * (i 0).val + (i 1).val / 512, hlt⟩, flush1_3 _, ?_⟩
  obtain ⟨-, -, -, -, -, -, -, -, e0, e1, e2⟩ := idx_facts ⟨8 * (i 0).val + (i 1).val / 512, hlt⟩
  have e0' : win1_3.index ⟨8 * (i 0).val + (i 1).val / 512, hlt⟩ (0 : Fin 3) = (8 * (i 0).val + (i 1).val / 512) / 8 := e0
  have e1' : win1_3.index ⟨8 * (i 0).val + (i 1).val / 512, hlt⟩ (1 : Fin 3) = (8 * (i 0).val + (i 1).val / 512) % 8 := e1
  show i ∈ ((View.whole main_v2).slice (win1_3.rect ⟨8 * (i 0).val + (i 1).val / 512, hlt⟩)).set
  rw [View.set_slice_whole, Rect.mem_set_unit]
  intro a
  match a with
  | ⟨0, _⟩ => show win1_3.index ⟨8 * (i 0).val + (i 1).val / 512, hlt⟩ (0 : Fin 3) * 1 ≤ (i 0).val ∧ (i 0).val < win1_3.index ⟨8 * (i 0).val + (i 1).val / 512, hlt⟩ (0 : Fin 3) * 1 + 1; omega
  | ⟨1, _⟩ => show win1_3.index ⟨8 * (i 0).val + (i 1).val / 512, hlt⟩ (1 : Fin 3) * 512 ≤ (i 1).val ∧ (i 1).val < win1_3.index ⟨8 * (i 0).val + (i 1).val / 512, hlt⟩ (1 : Fin 3) * 512 + 512; omega
  | ⟨2, _⟩ => show win1_3.index ⟨8 * (i 0).val + (i 1).val / 512, hlt⟩ (2 : Fin 3) * 1024 ≤ (i 2).val ∧ (i 2).val < win1_3.index ⟨8 * (i 0).val + (i 1).val / 512, hlt⟩ (2 : Fin 3) * 1024 + 1024; omega

/-- The second region leaves its function of the three arrays it reads in the result array. -/
theorem final (c : Dev nD) : (dat1 V c).arrAt 3 cfg1.N = attn (V c main_arg0) (V c main_v0) (V c main_v1) :=
  (dat1 V c).arrAt_eq_of_cover 3 (attn (V c main_arg0) (V c main_v0) (V c main_v1)) (fun t _ => flushed_eq V c t) (cover)

end Cert.KernelIdeal.Region1

end
-- ==== Proof.Glue.lean ====
/-
  The whole kernel's result as one function of its arguments.

  Following the buffer contents from segment to segment: the host transposes the weight; the first region reads the
  hidden states and leaves their Gram matrices in the intermediate array; the second region reads the hidden states,
  the transposed weight and the Gram matrices and leaves, in the result array,
      Σₒ (Σₖ A(b,s,k) · Wᵀ(k,o)) · G(b,o,h)  with  Wᵀ(k,o) = W(o,k),
  which is the specification's kernel-side function of the two arguments.
-/
import proofs.«143371_j34600256536774_2_alg».proof.Proof.Gen.KernelIdeal.Frame
import proofs.«143371_j34600256536774_2_alg».proof.Proof.Region0
import proofs.«143371_j34600256536774_2_alg».proof.Proof.Region1
import proofs.«143371_j34600256536774_2_alg».proof.Proof.Spec
import Idealize.ShloMosaic.Lib.StableHlo.Run
import Idealize.ShloMosaic.Lib.ValueLayout

set_option maxRecDepth 16384

noncomputable section

open scoped BigOperators

namespace Cert.KernelIdeal.Glue

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Neither the host's transpose nor the first region writes the hidden states: the second region finds them as
    launched, -/
theorem second_hidden (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans (W3_main_arg0 m ρ c)

/-- and so does the first. -/
theorem first_hidden (c : Dev nD) : V1 m ρ c main_arg0 = m ((c : Thread nD τ).loc main_arg0) :=
  ((W2_arr m ρ c 0).trans (((dat0 (V1 m ρ) c).arrAt_in 0 rfl _).trans (A_eq0 (V1 m ρ) c 0))).symm.trans (second_hidden m ρ c)

/-- The weight as the second region finds it is the launched weight transposed. -/
theorem second_weight (c : Dev nD) (k o : Fin 1024) :
    V2 m ρ c main_v0 (ix2 k o) = m ((c : Thread nD τ).loc main_arg1) (ix2 o k) := by
  have e1 : V2 m ρ c main_v0 = V1 m ρ c main_v0 := W2_of_ne m ρ c main_v0 (by decide)
  have e2 : V1 m ρ c main_v0 = transpose S1024x1024 [1, 0] (m ((c : Thread nD τ).loc main_arg1)) Facts₀.transposes_S1024x1024_S1024x1024_1_0 := by
    show StableHlo.after hostOps0 (W0 m ρ c) (Proc.devRef .tc main_v0) = _
    after_results
  rw [e1, e2]
  exact transpose_ix2_apply _ _ k o

/-- The intermediate array as the second region finds it holds the Gram matrices of the launched hidden states. -/
theorem second_gram (c : Dev nD) : V2 m ρ c main_v1 = Cert.Spec.gram (m ((c : Thread nD τ).loc main_arg0)) := by
  have e : V2 m ρ c main_v1 = (dat0 (V1 m ρ) c).arrAt 1 cfg0.N := W2_arr m ρ c 1
  rw [e, Region0.final (V1 m ρ) c, first_hidden m ρ c]

/-- The result array after the last segment is the specification's kernel-side function of the launched arguments. -/
theorem last_eq (c : Dev nD) :
    W3 m ρ c (Proc.devRef .tc main_v2)
      = Cert.Spec.attnKer (m ((c : Thread nD τ).loc main_arg0)) (m ((c : Thread nD τ).loc main_arg1)) := by
  have e : W3 m ρ c (Proc.devRef .tc main_v2) = (dat1 (V2 m ρ) c).arrAt 3 cfg1.N := W3_arr m ρ c 3
  rw [e, Region1.final (V2 m ρ) c, second_gram m ρ c, second_hidden m ρ c]
  funext i
  simp only [Region1.attn, Cert.Spec.attnKer, Cert.Spec.query]
  refine Finset.sum_congr rfl fun o _ => congrArg (· * _) (Finset.sum_congr rfl fun k _ => ?_)
  rw [second_weight m ρ c k o]

end Cert.KernelIdeal.Glue

end
-- ==== Proof.RefSide.lean ====
/-
  The reference's result, read entry by entry.

  The reference is three matrix products in a row. The first projects the hidden states A by the weight W,
  q(b,s,o) = Σₖ A(b,s,k) · W(o,k); the second forms the scores of the queries against every row,
  Σₒ q(b,s,o) · A(b,t,o); the third multiplies the scores into the rows, Σₜ score(b,s,t) · A(b,t,h). Each product read
  at an entry is a finite sum of products of entries; the entries it reads are named by their coordinates, and a triple
  (or pair) of coordinates rebuilt from its own components is the same index. Substituting the three readings into
  one another gives
      R(b,s,h) = Σₜ (Σₒ q(b,s,o) · A(b,t,o)) · A(b,t,h).
-/
import proofs.«143371_j34600256536774_2_alg».proof.Proof.Gen.ReferenceIdeal.Read
import proofs.«143371_j34600256536774_2_alg».proof.Proof.Spec

noncomputable section

open scoped BigOperators

namespace Cert.RefSide

open Idealize.ShloMosaic Idealize.ShloMosaic.ValueIdx Cert.ReferenceIdeal Cert.ReferenceIdeal.Read

/-- The reference's result is R(b,s,h) = Σₜ (Σₒ q(b,s,o) · A(b,t,o)) · A(b,t,h). -/
theorem ref_eq (A : (⟨Cert.ReferenceIdeal.S4x4096x1024, .f32⟩ : BufTy).Contents (Elt Ideal))
    (W : (⟨Cert.ReferenceIdeal.S1024x1024, .f32⟩ : BufTy).Contents (Elt Ideal)) :
    Cert.ReferenceIdeal.Read.val_main_v2 (F := Ideal) A W = Cert.Spec.attnRef A W := by
  funext i
  rw [val_main_v2_apply]
  show _ = ∑ t : Fin 4096, (∑ o : Fin 1024, Cert.Spec.query A W (i 0) (i 1) o * A (ix3 (i 0) t o))
    * A (ix3 (i 0) t (i 2))
  refine Finset.sum_congr rfl fun t _ => ?_
  -- the row the third product reads: (b, t, h)
  have e2 : ridx_main_v2 i t = ix3 (i 0) t (i 2) := funext fun a => by
    match a with
    | ⟨0, _⟩ => rfl
    | ⟨1, _⟩ => rfl
    | ⟨2, _⟩ => rfl
  rw [val_main_v1_apply, e2]
  refine congrArg (fun x => x * A (ix3 (i 0) t (i 2))) ?_
  refine Finset.sum_congr rfl fun o _ => ?_
  -- the row the second product reads: (b, t, o)
  have e1 : ridx_main_v1 (lidx_main_v2 i t) o = ix3 (i 0) t o := funext fun a => by
    match a with
    | ⟨0, _⟩ => rfl
    | ⟨1, _⟩ => rfl
    | ⟨2, _⟩ => rfl
  rw [val_main_v0_apply, e1]
  refine congrArg (fun x => x * A (ix3 (i 0) t o)) ?_
  show _ = ∑ k : Fin 1024, A (ix3 (i 0) (i 1) k) * W (ix2 o k)
  refine Finset.sum_congr rfl fun k _ => ?_
  -- the entries the first product reads: A at (b, s, k) and W at (o, k)
  have e0l : lidx_main_v0 (lidx_main_v1 (lidx_main_v2 i t) o) k = ix3 (i 0) (i 1) k := funext fun a => by
    match a with
    | ⟨0, _⟩ => rfl
    | ⟨1, _⟩ => rfl
    | ⟨2, _⟩ => rfl
  have e0r : ridx_main_v0 (lidx_main_v1 (lidx_main_v2 i t) o) k = ix2 o k := funext fun a => by
    match a with
    | ⟨0, _⟩ => rfl
    | ⟨1, _⟩ => rfl
  rw [e0l, e0r]
  rfl

end Cert.RefSide

end
-- ==== Proof.Finite.lean ====
/-
  The precondition read back: every entry of both argument arrays is a real number.

  The precondition computes, for each argument array x, the bit "|x| < +∞" at every entry, reduces each array of bits
  to one bit by "and" starting from 1, and takes the "and" of the two results; it states that this last bit is 1. An
  "and" of bits is 1 only if both are, and a reduction by "and" that comes out 1 met only 1s, so |x| < +∞ holds at
  every entry of both arrays. Over the extended reals |x| is max x (−x), and +∞ is what the word 0x7F800000 denotes;
  max x (−x) < ⊤ fails at x = ⊤ and at x = ⊥ (where −x = ⊤), so x is the coercion of a real number.
-/
import proofs.«143371_j34600256536774_2_alg».proof.Defs
import proofs.«143371_j34600256536774_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

variable [Cert.Pre_finite_inputs.Facts]

/-- The scalar shape has one index. -/
instance : Subsingleton Cert.Pre_finite_inputs.S_.Idx := ⟨fun _ _ => funext fun d => d.elim0⟩

/-- An extended real whose absolute value max x (−x) is below +∞ is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The precondition all ones: every entry of both argument arrays is real. -/
theorem real_of_fn (x0 : FVec Ideal Cert.Pre_finite_inputs.S4x4096x1024 .f32)
    (x1 : FVec Ideal Cert.Pre_finite_inputs.S1024x1024 .f32)
    (h : Cert.Pre_finite_inputs.fn (F := Ideal) x0 x1 = fun _ => 1#1) :
    (∀ i, ∃ r : ℝ, x0 i = (r : EReal)) ∧ (∀ i, ∃ r : ℝ, x1 i = (r : EReal)) := by
  have e := congrFun h ix0
  dsimp only [Cert.Pre_finite_inputs.fn] at e
  change IntOp.andi _ _ = 1#1 at e
  obtain ⟨e0, e1⟩ := IntOp.andi_eq_one.1 e
  refine ⟨fun i => real_of_abs_lt_inf (x0 i) ?_, fun i => real_of_abs_lt_inf (x1 i) ?_⟩
  · exact Host.reduce_andi_all _ _ _ _ _ e0 i
  · exact Host.reduce_andi_all _ _ _ _ _ e1 i

end Cert.Finite

end
-- ==== Proof.LibSumLaw.lean ====
import Mathlib.Data.EReal.Basic
import Mathlib.Algebra.BigOperators.Ring.Finset
import Mathlib.Algebra.BigOperators.Group.Finset.Sigma
import Mathlib.Tactic.Ring

/-!
# Reassociating a double sum of products of finite extended reals

For families `a k`, `x k j`, `w j` of extended reals all of whose entries are real numbers,
`∑ j, (∑ k, a k * x k j) * w j = ∑ k, a k * (∑ j, x k j * w j)`.

On the extended reals multiplication does not distribute over addition at the infinities
(`(⊤ + ⊥) * c` against `⊤ * c + ⊥ * c`), so the statement needs every entry to be real. With real
entries both sides are the coercion of the same real number: distribute, swap the two finite
sums, and reassociate each product.
-/

open scoped BigOperators

namespace Cert.SumLaw

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The law in the reals: distribute, swap the two sums, reassociate the products. -/
theorem real_sum_mul_sum_assoc {K J : ℕ} (a : Fin K → ℝ) (x : Fin K → Fin J → ℝ) (w : Fin J → ℝ) :
    (∑ j : Fin J, (∑ k : Fin K, a k * x k j) * w j) = ∑ k : Fin K, a k * (∑ j : Fin J, x k j * w j) := by
  simp only [Finset.sum_mul, Finset.mul_sum]
  rw [Finset.sum_comm]
  refine Finset.sum_congr rfl fun k _ => Finset.sum_congr rfl fun j _ => ?_
  ring

/-- The law on extended reals whose entries are all real. -/
theorem sum_mul_sum_assoc {K J : ℕ} (a : Fin K → EReal) (x : Fin K → Fin J → EReal) (w : Fin J → EReal)
    (ha : ∀ k, ∃ r : ℝ, a k = (r : EReal)) (hx : ∀ k j, ∃ r : ℝ, x k j = (r : EReal))
    (hw : ∀ j, ∃ r : ℝ, w j = (r : EReal)) :
    (∑ j : Fin J, (∑ k : Fin K, a k * x k j) * w j) = ∑ k : Fin K, a k * (∑ j : Fin J, x k j * w j) := by
  choose a' ha' using ha
  choose x' hx' using hx
  choose w' hw' using hw
  simp only [ha', hx', hw', ← EReal.coe_mul, ← coe_sum]
  rw [real_sum_mul_sum_assoc]

end Cert.SumLaw
-- ==== Proof.Algebra.lean ====
/-
  Associativity of the matrix product, entry by entry, over the extended reals.

  The kernel multiplies the queries into the Gram matrix of the hidden states,
      K(b,s,h) = Σₒ q(b,s,o) · G(b,o,h),   G(b,o,h) = ((S₀ + S₁) + S₂) + S₃,
  where Sₛ sums A(b,t,o) · A(b,t,h) over the s-th block of 1024 rows t. The reference multiplies the scores into the rows,
      R(b,s,h) = Σₜ (Σₒ q(b,s,o) · A(b,t,o)) · A(b,t,h).

  Two steps. First, the four blocks of 1024 rows are exactly the 4096 rows, each once (t = 1024·s + k with s = t / 1024
  and k = t % 1024), so G(b,o,h) = Σₜ A(b,t,o) · A(b,t,h); this is a re-indexing of a finite sum and holds in any
  commutative additive monoid. Second, Σₜ (Σₒ qₒ · xₒₜ) · wₜ = Σₒ qₒ · (Σₜ xₒₜ · wₜ): on the extended reals this needs
  every entry real (the product does not distribute over the sum at the infinities), and the queries are real because a
  finite sum of products of reals is real.
-/
import Mathlib.Algebra.BigOperators.Fin
import Mathlib.Data.EReal.Basic
import proofs.«143371_j34600256536774_2_alg».proof.Proof.Spec
import proofs.«143371_j34600256536774_2_alg».proof.Proof.LibSumLaw

noncomputable section

open scoped BigOperators

namespace Cert.Algebra

open Idealize.ShloMosaic Idealize.ShloMosaic.ValueIdx Cert.Spec

/-! ## The four blocks of 1024 rows are the 4096 rows -/

/-- Block s and row k within it, against the row 1024·s + k: a bijection, with inverse t ↦ (t / 1024, t % 1024). -/
def blkEquiv : Fin 4 × Fin 1024 ≃ Fin 4096 where
  toFun p := rowBlk p.1 p.2
  invFun t := (⟨t.val / 1024, by omega⟩, ⟨t.val % 1024, by omega⟩)
  left_inv p := by
    obtain ⟨s, k⟩ := p
    refine Prod.ext (Fin.ext ?_) (Fin.ext ?_)
    · show (1024 * s.val + k.val) / 1024 = s.val
      omega
    · show (1024 * s.val + k.val) % 1024 = k.val
      omega
  right_inv t := by
    refine Fin.ext ?_
    show 1024 * (t.val / 1024) + t.val % 1024 = t.val
    omega

/-- A sum over the 4096 rows is the sum of the four block sums, taken in block order. -/
theorem sum_rowBlk {M : Type*} [AddCommMonoid M] (f : Fin 4096 → M) :
    (∑ k : Fin 1024, f (rowBlk 0 k)) + (∑ k : Fin 1024, f (rowBlk 1 k)) + (∑ k : Fin 1024, f (rowBlk 2 k))
      + (∑ k : Fin 1024, f (rowBlk 3 k)) = ∑ t : Fin 4096, f t := by
  rw [← Equiv.sum_comp blkEquiv f, Fintype.sum_prod_type, Fin.sum_univ_four]
  rfl

/-- The Gram matrix is the sum over all rows: G(b,o,h) = Σₜ A(b,t,o) · A(b,t,h). -/
theorem gram_eq (A : SA.Idx → EReal) (b : Fin 4) (o h : Fin 1024) :
    gram A (ix3 b o h) = ∑ t : Fin 4096, A (ix3 b t o) * A (ix3 b t h) :=
  sum_rowBlk (fun t => A (ix3 b t o) * A (ix3 b t h))

/-! ## Real entries stay real under finite sums and products -/

/-- A product of two reals is real. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A finite sum of reals is real. -/
theorem real_sum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [Cert.SumLaw.coe_sum]; exact Finset.sum_congr rfl fun i _ => hg i⟩

/-- The projected queries of real data are real. -/
theorem real_query (A : SA.Idx → EReal) (W : SW.Idx → EReal) (hA : ∀ i, ∃ r : ℝ, A i = (r : EReal))
    (hW : ∀ i, ∃ r : ℝ, W i = (r : EReal)) (b : Fin 4) (s : Fin 4096) (o : Fin 1024) :
    ∃ r : ℝ, query A W b s o = (r : EReal) :=
  real_sum Finset.univ _ fun k => real_mul (hA (ix3 b s k)) (hW (ix2 o k))

/-! ## The kernel's result is the reference's -/

/-- The law at one entry (b,s,h): Σₒ q(b,s,o) · G(b,o,h) = Σₜ (Σₒ q(b,s,o) · A(b,t,o)) · A(b,t,h). -/
theorem ker_eq_ref_at (A : SA.Idx → EReal) (W : SW.Idx → EReal) (hA : ∀ i, ∃ r : ℝ, A i = (r : EReal))
    (hW : ∀ i, ∃ r : ℝ, W i = (r : EReal)) (b : Fin 4) (s : Fin 4096) (h : Fin 1024) :
    (∑ o : Fin 1024, query A W b s o * gram A (ix3 b o h))
      = ∑ t : Fin 4096, (∑ o : Fin 1024, query A W b s o * A (ix3 b t o)) * A (ix3 b t h) := by
  simp only [gram_eq]
  exact (Cert.SumLaw.sum_mul_sum_assoc (fun o => query A W b s o) (fun o t => A (ix3 b t o))
    (fun t => A (ix3 b t h)) (fun o => real_query A W hA hW b s o) (fun o t => hA (ix3 b t o))
    (fun t => hA (ix3 b t h))).symm

/-- On real data, multiplying the queries into the Gram matrix is multiplying the scores into the rows. -/
theorem attnKer_eq_attnRef (A : Cert.Spec.SA.Idx → EReal) (W : Cert.Spec.SW.Idx → EReal)
    (hA : ∀ i, ∃ r : ℝ, A i = (r : EReal)) (hW : ∀ i, ∃ r : ℝ, W i = (r : EReal)) :
    Cert.Spec.attnKer A W = Cert.Spec.attnRef A W := by
  funext i
  exact ker_eq_ref_at A W hA hW (i 0) (i 1) (i 2)

end Cert.Algebra

end
-- ==== Proof.lean ====
/-
  The kernel computes attention without a softmax for one head as (X · Wᵀ) · (Xᵀ · X): it first accumulates, per batch
  entry, the Gram matrix Xᵀ · X of the hidden states over four blocks of rows, and then multiplies the projected queries
  X · Wᵀ into it. The reference computes ((X · Wᵀ) · Xᵀ) · X. Over the extended reals, where every float operation is the
  exact one and a change of float format is the identity, both are sums of products of the same entries, and they are
  equal because the product of matrices is associative — a law that holds on the extended reals when every entry is a
  real number, which the precondition (every input finite) provides.

  The pieces: the kernel's run names its result array as the last link of the chain of buffer contents through the
  program's segments (KRun); each region's output array is read as one function of the arrays the region finds
  (Region0, Region1, over the bodies' arithmetic read at an index in Payload); the chain is followed back to the
  launched arguments (Glue); the reference's three products are read at an index (RefSide); finiteness of the inputs is
  decoded from the precondition (Finite); and associativity joins the two sides (Algebra, over the law in LibSumLaw).
  The idealization rewrote nothing, so the kernel's idealized program is its own text read over the extended reals.
-/
import proofs.«143371_j34600256536774_2_alg».proof.Defs
import proofs.«143371_j34600256536774_2_alg».proof.Proof.Gen.Kernel
import proofs.«143371_j34600256536774_2_alg».proof.Proof.Gen.Kernel.Skeleton
import proofs.«143371_j34600256536774_2_alg».proof.Proof.Gen.Kernel.Launch
import proofs.«143371_j34600256536774_2_alg».proof.Proof.Gen.Kernel.Points
import proofs.«143371_j34600256536774_2_alg».proof.Proof.Gen.Kernel.Frame
import proofs.«143371_j34600256536774_2_alg».proof.Proof.Gen.KernelIdeal
import proofs.«143371_j34600256536774_2_alg».proof.Proof.Gen.KernelIdeal.Skeleton
import proofs.«143371_j34600256536774_2_alg».proof.Proof.Gen.KernelIdeal.Launch
import proofs.«143371_j34600256536774_2_alg».proof.Proof.Gen.KernelIdeal.Points
import proofs.«143371_j34600256536774_2_alg».proof.Proof.Gen.KernelIdeal.Frame
import proofs.«143371_j34600256536774_2_alg».proof.Proof.Gen.ReferenceIdeal
import proofs.«143371_j34600256536774_2_alg».proof.Proof.Gen.ReferenceIdeal.Run
import proofs.«143371_j34600256536774_2_alg».proof.Proof.Gen.ReferenceIdeal.Read
import proofs.«143371_j34600256536774_2_alg».proof.Proof.Gen.Pre_finite_inputs
import proofs.«143371_j34600256536774_2_alg».proof.Proof.KRun
import proofs.«143371_j34600256536774_2_alg».proof.Proof.Glue
import proofs.«143371_j34600256536774_2_alg».proof.Proof.RefSide
import proofs.«143371_j34600256536774_2_alg».proof.Proof.Finite
import proofs.«143371_j34600256536774_2_alg».proof.Proof.Algebra
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is three host products in a row: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments, both finite, the kernel's result array ends at
    Σₒ q(b,s,o) · G(b,o,h) and the reference's at Σₜ (Σₒ q(b,s,o) · A(b,t,o)) · A(b,t,h): the same extended reals. -/
theorem algebraic : Cert.algebraic_KernelIdeal_ReferenceIdeal := by
  intro m ρ m' ρ' hpre hagree
  refine ⟨fun c => Cert.Spec.attnKer (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Glue.last_eq m ρ c), (h c).2⟩)
      (Cert.KernelIdeal.KRun.run_last m ρ)
  · refine (θ_run Cert.ReferenceIdeal.defs _ _).mono (fun _ h c => ⟨?_, (h c).2⟩)
      (Cert.ReferenceIdeal.Value.run (F := Ideal) m' ρ')
    obtain ⟨hA, hW⟩ := Cert.Finite.real_of_fn _ _ (hpre c)
    rw [(h c).1, Cert.ReferenceIdeal.Read.val_main_v2_eq, Cert.RefSide.ref_eq, (hagree c).1, (hagree c).2]
    exact (Cert.Algebra.attnKer_eq_attnRef _ _ hA hW).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
